-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) (main_arg2 : FVec F S1024x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S1024x128 : Shape := ⟨2, ![1024, 128]⟩
abbrev S1024x1 : Shape := ⟨2, ![1024, 1]⟩
abbrev S256x128 : Shape := ⟨2, ![256, 128]⟩
abbrev S256x1 : Shape := ⟨2, ![256, 1]⟩
abbrev S1x128 : Shape := ⟨2, ![1, 128]⟩
abbrev S256 : Shape := ⟨1, ![256]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x1, .f32⟩
  | .hbm, ⟨4, _⟩ => ⟨S1024x1, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S1024x128, .f32⟩
  | .local _ .vmem, ⟨3, _⟩ => ⟨S1024x128, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v5 : Index := Scalar.indexCast v1
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  reduces_S256x128_S256 : S256x128.Reduces [1] S256
  shapeCasts_S256_S256x1 : S256.ShapeCasts S256x1
  broadcasts_S256x1_S256x1024 : S256x1.Broadcasts S256x1024
  broadcasts_S1x1024_S256x1024 : S1x1024.Broadcasts S256x1024
  reduces_S256x1024_S256 : S256x1024.Reduces [1] S256
  inb_S256x1_S256x1_0_0 : ∀ a, (![0, 0] : Fin 2 → Nat) a + S256x1.size a ≤ S256x1.size a
  h_S256x1 : 0 < S256x1.numel
  shapeCasts_S1024x1_S1024 : S1024x1.ShapeCasts S1024
  reducesTo_S1024_S_d0 : S1024.ReducesTo [0] S_
  h_S_ : 0 < S_.numel
  dot_S1x128_S1024x128_S1x1024_1_1_0_0_n_n_wf : DotDims.WF S1x128 S1024x128 S1x1024 [1] [1] [0] [0] [] []
  dot_S256x128_S1024x128_S256x1024_1_1_0_0_n_n_wf : DotDims.WF S256x128 S1024x128 S256x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .f32 = 32 ∨ (Rect.block (s := S1024x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .f32 = 32 ∨ (Rect.block (s := S1024x1) S256x1.size (cc0_transform_4 i) (hinb0_4 i)).WholeWords (EltTy.packing .f32)

variable [Facts₀]

def dot_S1x128_S1024x128_S1x1024_1_1_0_0_n_n : DotDims S1x128 S1024x128 S1x1024 where
  lhsContracting := [1]
  rhsContracting := [1]
  lhsNonContracting := [0]
  rhsNonContracting := [0]
  lhsBatch := []
  rhsBatch := []
  wf := dot_S1x128_S1024x128_S1x1024_1_1_0_0_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S_ : Shape := ⟨0, ![]⟩
abbrev S1024 : Shape := ⟨1, ![1024]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024x1x128, .f32⟩
  | .hbm, ⟨12, _⟩ => ⟨S1x1024x128, .f32⟩
  | .hbm, ⟨13, _⟩ => ⟨S1024x1024x128, .f32⟩
  | .hbm, ⟨14, _⟩ => ⟨S1024x1024x128, .f32⟩
  | .hbm, ⟨15, _⟩ => ⟨S1024x1024x128, .f32⟩
  | .hbm, ⟨16, _⟩ => ⟨S1024x1024x128, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024x1x128, .f32⟩
  | .hbm, ⟨41, _⟩ => ⟨S1x1024x128, .f32⟩
  | .hbm, ⟨42, _⟩ => ⟨S1024x1024x128, .f32⟩
  | .hbm, ⟨43, _⟩ => ⟨S1024x1024x128, .f32⟩
  | .hbm, ⟨44, _⟩ => ⟨S1024x1024x128, .f32⟩
  | .hbm, ⟨45, _⟩ => ⟨S1024x1024x128, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call3_v0 : Ref sig .tc := ⟨.hbm, 45, rfl⟩
abbrev main_call3_cst : Ref sig .tc := ⟨.hbm, 46, rfl⟩
abbrev main_call3_v1 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S_S1024 : S_.BroadcastsInDim S1024 (![] : Fin 0 → Fin S1024.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  bcast_S_S1024x1024 : S_.BroadcastsInDim S1024x1024 (![] : Fin 0 → Fin S1024x1024.rank)
  reducesTo_S1024x1024_S1024_d1 : S1024x1024.ReducesTo [1] S1024
  reducesTo_S1024_S_d0 : S1024.ReducesTo [0] S_

variable [Facts₀]

class Facts : Prop extends Facts₀ where

variable [Facts]
-- ==== Proof.Finite.lean ====
/-
  The precondition, read: every entry of the three argument arrays is a real number. The precondition is the
  conjunction of three `all(|a| < +∞)` tests; each is a reduction by `and` into one bit, which is one only if every
  compared entry gave one, and on the extended reals `max a (-a) < ⊤` fails exactly at the two infinities.
-/
import proofs.«174744_j34196529611087_1_alg».proof.Pre_finite_inputs
import proofs.«174744_j34196529611087_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-- Under the precondition every entry of each argument array is real. -/
theorem reals_of_pre [Cert.Pre_finite_inputs.Facts] (a0 a1 a2 : FVec Ideal S1024x128 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.Finite

end
-- ==== Proof.Pieces.lean ====
/-
  What one grid point leaves in each of its two output blocks, as values: the body's single covering store of
  each block holds that block's payload, a function of the three loaded blocks — the 256 query rows of the
  point, the whole key matrix, and the 256 key rows at the point's own row offset (read out of the whole key
  matrix's staging buffer).
-/
import proofs.«174744_j34196529611087_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen

variable {F : FTy → Type} [FloatOps F]

theorem hz : (![0, 0] : Fin 2 → Nat) = fun _ => 0 := funext fun a => by fin_cases a <;> rfl

/-- The 256 rows of a key matrix at the row offset of grid point `i`. -/
abbrev rowsAt (i : grid0.Coords) (y : Vec F S1024x128 .f32) : Vec F S256x128 .f32 :=
  View.ld y (Rect.unit (s := S1024x128) (k0_off1 i) S256x128.size (k0_off1_inb i))

/-- Output block of the first result (queries against the first key matrix). -/
theorem out3_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S256x1 .f32) (harg5 : arg5.IsWhole)
    (x0 : Vec F S256x128 .f32) (x1 : Vec F S1024x128 .f32) (x2 : Vec F S1024x128 .f32) :
    out0_A_3 c i arg1 harg1 arg2 harg2 arg3 harg3 arg4 harg4 arg5 harg5 x0 x1 x2 = k0_pay1 (k0_pay4 x0 x1 (rowsAt i x1)) := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero hz]
  sl_unfold_run_names
  simp only [View.readAt_eq_ld, harg1.read_unread, harg2.read_unread, View.ld_unit_zero (S := S256x128) hz,
    View.ld_unit_zero (S := S1024x128) hz]

/-- Output block of the second result (queries against the second key matrix). -/
theorem out4_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S256x1 .f32) (harg4 : arg4.IsWhole) (arg5 : Memref sig .tc .vmem S256x1 .f32) (harg5 : arg5.IsWhole)
    (x0 : Vec F S256x128 .f32) (x1 : Vec F S1024x128 .f32) (x2 : Vec F S1024x128 .f32) :
    out0_A_4 c i arg1 harg1 arg2 harg2 arg3 harg3 arg4 harg4 arg5 harg5 x0 x1 x2 = k0_pay2 x0 (k0_pay3 (F := F)) x2 (k0_pay5 x0 (rowsAt i x2)) := by
  unfold out0_A_4
  rw [View.read_writes_eq_canon _ _ _ (cover0_A_4 c i arg1 harg1 arg2 harg2 arg3 harg3 arg4 harg4 arg5 harg5 x0 x1 x2)]
  unfold kernelRun0_A
  dsimp only
  rw [View.canon_unit_zero hz]
  sl_unfold_run_names
  simp only [View.readAt_eq_ld, harg1.read_unread, harg3.read_unread, View.ld_unit_zero (S := S256x128) hz,
    View.ld_unit_zero (S := S1024x128) hz]

end Cert.KernelIdeal.Rows

end
-- ==== Proof.Spec.lean ====
/-
  What both programs compute for one query row, over the extended reals. For a query row `u`, its matched key
  row `v` and the 1024 key rows `Y`:
      rowLoss u v Y = √(Σ_k (u_k - v_k)²) · s  -  log Σ_j exp(√(Σ_k (u_k - Y_jk)²) · s)
  with `s` the float nearest to `1/√128` (the same pattern in both programs, so it is never evaluated).
-/
import Idealize.ShloMosaic.PureOps.Ideal

noncomputable section

namespace Cert.PairLoss

open Idealize.ShloMosaic

/-- The temperature scale both programs multiply a distance by. -/
def scale : EReal := Ideal.ofBits .f32 0x3DB504F3#32

/-- The squared Euclidean distance of two rows of length 128. -/
def sqDist (u v : Fin 128 → EReal) : EReal := ∑ k : Fin 128, (u k - v k) * (u k - v k)

/-- The loss of one query row against its matched key row and all the key rows. -/
def rowLoss (u v : Fin 128 → EReal) (Y : Fin 1024 → Fin 128 → EReal) : EReal :=
  Ideal.sqrt (sqDist u v) * scale - Ideal.log (∑ j : Fin 1024, Ideal.exp (Ideal.sqrt (sqDist u (Y j)) * scale))

end Cert.PairLoss

end
-- ==== Proof.SqDist.lean ====
/-
  The one algebraic law of this certificate. Over the reals, the squared Euclidean distance of two vectors is
  the sum of their squared norms minus twice their inner product, and it is never negative; so clamping the
  expanded form at zero changes nothing. Stated a second time over the extended reals at real entries, in the
  arrangement a matrix-product evaluation of the three sums gives: the squared norm of the second vector arrives
  as an inner product with a vector of ones.
-/
import Mathlib

namespace Cert.SqDist

/-- `Σ_d (x_d - y_d)² = Σ_d x_d² + Σ_d y_d² - 2 Σ_d x_d y_d` over any finite index type. -/
theorem sum_sq_sub {ι : Type*} [Fintype ι] (x y : ι → ℝ) :
    ∑ d, (x d - y d) * (x d - y d) = ∑ d, x d * x d + ∑ d, y d * y d - 2 * ∑ d, x d * y d := by
  rw [Finset.mul_sum, ← Finset.sum_add_distrib, ← Finset.sum_sub_distrib]
  exact Finset.sum_congr rfl (fun d _ => by ring)

/-- The inclusion of the reals in the extended reals commutes with finite sums. -/
theorem coe_sum {ι : Type*} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- At real entries `a`, `b`: `max (Σ a² + Σ 1·b² - 2·Σ a·b) 0 = Σ (a - b)²` as extended reals. -/
theorem expand_clamped {ι : Type*} [Fintype ι] (a b : ι → ℝ) :
    max ((∑ k, (a k : EReal) * (a k : EReal)) + (∑ k, ((1 : ℝ) : EReal) * ((b k : EReal) * (b k : EReal)))
          - ((2 : ℝ) : EReal) * ∑ k, (a k : EReal) * (b k : EReal)) 0
      = ∑ k, ((a k : EReal) - (b k : EReal)) * ((a k : EReal) - (b k : EReal)) := by
  have hr : (∑ k, a k * a k + ∑ k, (1 : ℝ) * (b k * b k) - 2 * ∑ k, a k * b k) = ∑ k, (a k - b k) * (a k - b k) := by
    rw [sum_sq_sub]; simp only [one_mul]
  have hnn : 0 ≤ ∑ k, (a k - b k) * (a k - b k) := Finset.sum_nonneg (fun k _ => mul_self_nonneg _)
  have hL : (∑ k, (a k : EReal) * (a k : EReal)) + (∑ k, ((1 : ℝ) : EReal) * ((b k : EReal) * (b k : EReal)))
          - ((2 : ℝ) : EReal) * ∑ k, (a k : EReal) * (b k : EReal)
      = ((∑ k, a k * a k + ∑ k, (1 : ℝ) * (b k * b k) - 2 * ∑ k, a k * b k : ℝ) : EReal) := by
    rw [EReal.coe_sub, EReal.coe_add, EReal.coe_mul, coe_sum, coe_sum, coe_sum]
    simp only [EReal.coe_mul]
  have hR : (∑ k, ((a k : EReal) - (b k : EReal)) * ((a k : EReal) - (b k : EReal)))
      = ((∑ k, (a k - b k) * (a k - b k) : ℝ) : EReal) := by
    rw [coe_sum]; simp only [EReal.coe_mul, EReal.coe_sub]
  rw [hL, hR, hr, max_eq_left (EReal.coe_nonneg.mpr hnn)]

end Cert.SqDist
-- ==== Proof.Consts.lean ====
/-
  The two float constants only the kernel spells, as the extended reals their patterns denote: `1.0` (the row of
  ones whose product with the squared keys gives their squared norms) and `2.0` (the factor of the cross term).
-/
import Idealize.ShloMosaic.PureOps.Ideal

noncomputable section

namespace Cert.Consts

open Idealize.ShloMosaic

/-- The pattern of `1.0` denotes the real one. -/
theorem ofBits_one : Ideal.ofBits .f32 0x3F800000#32 = ((1 : ℝ) : EReal) := by
  simp [Ideal.ofBits, Ideal.ieee, -EReal.coe_mul]; norm_num

/-- The pattern of `2.0` denotes the real two. -/
theorem ofBits_two : Ideal.ofBits .f32 0x40000000#32 = ((2 : ℝ) : EReal) := by
  simp [Ideal.ofBits, Ideal.ieee, -EReal.coe_mul]; norm_num

end Cert.Consts

end
-- ==== Proof.KernelRows.lean ====
/-
  The kernel's body, one query row at a time, over the extended reals. A grid point holds 256 query rows `xb`,
  the whole key matrix `y` and the 256 key rows `yb` matched to its queries. For query row `p` the body computes
      √(Σ_k (xb[p,k] - yb[p,k])²) · s  -  log Σ_j exp(√(max(‖xb[p]‖² + ‖y[j]‖² - 2·⟨xb[p], y[j]⟩, 0)) · s),
  the squared key norms as the product of a row of ones with the squared keys, the inner products as one matrix
  product. When the queries and keys are real, the clamped expansion is the squared distance `Σ_k (xb[p,k] - y[j,k])²`
  (Proof/SqDist.lean), so the row's value is `PairLoss.rowLoss`.
-/
import proofs.«174744_j34196529611087_1_alg».proof.Proof.Gen.KernelIdeal.Skeleton
import proofs.«174744_j34196529611087_1_alg».proof.Proof.Spec
import proofs.«174744_j34196529611087_1_alg».proof.Proof.SqDist
import proofs.«174744_j34196529611087_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## The body's intermediate values, named -/

/-- The squared norms of the 256 query rows, as a column. -/
def qNorm (xb : FVec Ideal S256x128 .f32) : FVec Ideal S256x1 .f32 :=
  shapeCast S256x1 (multiReduction .add [1] S256 (mulf xb xb) 0x00000000#32 Facts₀.reduces_S256x128_S256 (.inl rfl) rfl) Facts₀.shapeCasts_S256_S256x1

/-- The squared norms of the 1024 key rows, as a row: a row of ones times the squared keys. -/
def kNorm (y : FVec Ideal S1024x128 .f32) : FVec Ideal S1x1024 .f32 :=
  matmul dot_S1x128_S1024x128_S1x1024_1_1_0_0_n_n none (k0_pay3 (F := Ideal)) (mulf y y) (constant S1x1024 .f32 0x00000000#32)

/-- The inner products of the query rows with the key rows. -/
def cross (xb : FVec Ideal S256x128 .f32) (y : FVec Ideal S1024x128 .f32) : FVec Ideal S256x1024 .f32 :=
  matmul dot_S256x128_S1024x128_S256x1024_1_1_0_0_n_n none xb y (constant S256x1024 .f32 0x00000000#32)

/-- The expanded squared distances, clamped at zero. -/
def sqExp (xb : FVec Ideal S256x128 .f32) (y : FVec Ideal S1024x128 .f32) : FVec Ideal S256x1024 .f32 :=
  maximumf (subf (addf (broadcastTo S256x1024 (qNorm xb) Facts₀.broadcasts_S256x1_S256x1024)
      (broadcastTo S256x1024 (kNorm y) Facts₀.broadcasts_S1x1024_S256x1024))
    (mulf (broadcast S256x1024 (Scalar.ofBits .f32 0x40000000#32)) (cross xb y)))
    (broadcast S256x1024 (Scalar.ofBits .f32 0x00000000#32))

/-- The summed exponentials of the scaled distances of each query row to all key rows. -/
def denom (xb : FVec Ideal S256x128 .f32) (y : FVec Ideal S1024x128 .f32) : FVec Ideal S256 .f32 :=
  multiReduction .add [1] S256 (exp (mulf (sqrt (sqExp xb y)) (broadcast S256x1024 (Scalar.ofBits .f32 0x3DB504F3#32))))
    0x00000000#32 Facts₀.reduces_S256x1024_S256 (.inl rfl) rfl

/-- The scaled distance of each query row to its matched key row. -/
def posD (xb yb : FVec Ideal S256x128 .f32) : FVec Ideal S256 .f32 :=
  mulf (sqrt (multiReduction .add [1] S256 (mulf (subf xb yb) (subf xb yb)) 0x00000000#32 Facts₀.reduces_S256x128_S256 (.inl rfl) rfl))
    (broadcast S256 (Scalar.ofBits .f32 0x3DB504F3#32))

/-- The 256 row values of one grid point. -/
def rowK (xb : FVec Ideal S256x128 .f32) (y : FVec Ideal S1024x128 .f32) (yb : FVec Ideal S256x128 .f32) : FVec Ideal S256 .f32 :=
  subf (posD xb yb) (log (denom xb y))

/-- The first output's payload is the row values as a column. -/
theorem pay14_eq (xb : FVec Ideal S256x128 .f32) (y : FVec Ideal S1024x128 .f32) (yb : FVec Ideal S256x128 .f32) :
    k0_pay1 (F := Ideal) (k0_pay4 xb y yb) = shapeCast S256x1 (rowK xb y yb) Facts₀.shapeCasts_S256_S256x1 := rfl

/-- The second output's payload is the same function of its own key matrix. -/
theorem pay25_eq (xb : FVec Ideal S256x128 .f32) (y : FVec Ideal S1024x128 .f32) (yb : FVec Ideal S256x128 .f32) :
    k0_pay2 (F := Ideal) xb (k0_pay3 (F := Ideal)) y (k0_pay5 xb yb) = shapeCast S256x1 (rowK xb y yb) Facts₀.shapeCasts_S256_S256x1 := rfl

/-! ## Reductions, casts and broadcasts read at an index -/

/-- A sum over the 128 lanes of row `p`. -/
theorem lane128 (v : FVec Ideal S256x128 .f32) (p : Fin 256) :
    multiReduction .add [1] S256 v 0x00000000#32 Facts₀.reduces_S256x128_S256 (.inl rfl) rfl (ix1 p) = ∑ k : Fin 128, v (ix2 p k) := by
  refine (Ideal.multiReduction_add_single v 0x00000000#32 Facts₀.reduces_S256x128_S256 _ _ (ix1 p)).trans ?_
  exact Finset.sum_congr rfl fun k _ => congrArg v (funext fun a => Fin.ext (by match a with | ⟨0, _⟩ => rfl | ⟨1, _⟩ => rfl))

/-- A sum over the 1024 lanes of row `p`. -/
theorem lane1024 (v : FVec Ideal S256x1024 .f32) (p : Fin 256) :
    multiReduction .add [1] S256 v 0x00000000#32 Facts₀.reduces_S256x1024_S256 (.inl rfl) rfl (ix1 p) = ∑ j : Fin 1024, v (ix2 p j) := by
  refine (Ideal.multiReduction_add_single v 0x00000000#32 Facts₀.reduces_S256x1024_S256 _ _ (ix1 p)).trans ?_
  exact Finset.sum_congr rfl fun k _ => congrArg v (funext fun a => Fin.ext (by match a with | ⟨0, _⟩ => rfl | ⟨1, _⟩ => rfl))

/-- A vector of 256 values as a column reads, at `(p, 0)`, the vector at `p`. -/
theorem col_apply (v : FVec Ideal S256 .f32) (p : Fin 256) (u : Fin 1) :
    shapeCast S256x1 v Facts₀.shapeCasts_S256_S256x1 (ix2 p u) = v (ix1 p) := by
  refine shapeCast_apply v Facts₀.shapeCasts_S256_S256x1 (ix2 p u) (ix1 p) ?_
  rw [Shape.rowMajor_val_one, Shape.rowMajor_val_two]
  show p.val = p.val * 1 + u.val
  have := u.isLt
  omega

/-- A column broadcast along the lanes reads, at `(p, j)`, the column at `p`. -/
theorem bcol_apply (v : FVec Ideal S256x1 .f32) (p : Fin 256) (j : Fin 1024) :
    broadcastTo S256x1024 v Facts₀.broadcasts_S256x1_S256x1024 (ix2 p j) = v (ix2 p (0 : Fin 1)) := by
  refine broadcastTo_apply v Facts₀.broadcasts_S256x1_S256x1024 (ix2 p j) (ix2 p (0 : Fin 1)) fun ax => ?_
  match ax with
  | ⟨0, _⟩ => show p.val = if (256 : Nat) = 1 then 0 else p.val; rw [if_neg (by decide)]
  | ⟨1, _⟩ => show (0 : Nat) = if (1 : Nat) = 1 then 0 else j.val; rw [if_pos rfl]

/-! ## The two matrix products read at an index -/

abbrev Dc := dot_S256x128_S1024x128_S256x1024_1_1_0_0_n_n
abbrev Dn := dot_S1x128_S1024x128_S1x1024_1_1_0_0_n_n

theorem lhsDc_0 (j : S256x1024.Idx) (k : Dc.contr.Idx) : (Dc.lhsIdx j k 0 : ℕ) = j 0 := by
  simp [DotDims.lhsIdx, Dc, dot_S256x128_S1024x128_S256x1024_1_1_0_0_n_n]; rfl
theorem lhsDc_1 (j : S256x1024.Idx) (k : Dc.contr.Idx) : (Dc.lhsIdx j k 1 : ℕ) = k ⟨0, by decide⟩ := by
  simp [DotDims.lhsIdx, Dc, dot_S256x128_S1024x128_S256x1024_1_1_0_0_n_n]; rfl
theorem rhsDc_0 (j : S256x1024.Idx) (k : Dc.contr.Idx) : (Dc.rhsIdx j k 0 : ℕ) = j 1 := by
  simp [DotDims.rhsIdx, Dc, dot_S256x128_S1024x128_S256x1024_1_1_0_0_n_n]; rfl
theorem rhsDc_1 (j : S256x1024.Idx) (k : Dc.contr.Idx) : (Dc.rhsIdx j k 1 : ℕ) = k ⟨0, by decide⟩ := by
  simp [DotDims.rhsIdx, Dc, dot_S256x128_S1024x128_S256x1024_1_1_0_0_n_n]; rfl

theorem rhsDn_0 (j : S1x1024.Idx) (k : Dn.contr.Idx) : (Dn.rhsIdx j k 0 : ℕ) = j 1 := by
  simp [DotDims.rhsIdx, Dn, dot_S1x128_S1024x128_S1x1024_1_1_0_0_n_n]; rfl
theorem rhsDn_1 (j : S1x1024.Idx) (k : Dn.contr.Idx) : (Dn.rhsIdx j k 1 : ℕ) = k ⟨0, by decide⟩ := by
  simp [DotDims.rhsIdx, Dn, dot_S1x128_S1024x128_S1x1024_1_1_0_0_n_n]; rfl

/-- Entry `(p, j)` of the inner products is `Σ_k xb[p,k] · y[j,k]`. -/
theorem cross_apply (xb : FVec Ideal S256x128 .f32) (y : FVec Ideal S1024x128 .f32) (p : Fin 256) (j : Fin 1024) :
    cross xb y (ix2 p j) = ∑ k : Fin 128, xb (ix2 p k) * y (ix2 j k) := by
  unfold cross
  refine (Ideal.matmul_constant_zero_apply Dc none xb y (ix2 p j)).trans ?_
  rw [← Equiv.sum_comp (contrEquiv1 Dc 128 rfl rfl).symm]
  refine Finset.sum_congr rfl fun k _ => ?_
  have hk : ((contrEquiv1 Dc 128 rfl rfl).symm k ⟨0, by decide⟩ : ℕ) = k.val := contrEquiv1_symm_val Dc 128 rfl rfl k
  have el : Dc.lhsIdx (ix2 p j) ((contrEquiv1 Dc 128 rfl rfl).symm k) = ix2 p k :=
    funext fun a => Fin.ext (by
      match a with
      | ⟨0, _⟩ => exact lhsDc_0 _ _
      | ⟨1, _⟩ => exact (lhsDc_1 _ _).trans hk)
  have er : Dc.rhsIdx (ix2 p j) ((contrEquiv1 Dc 128 rfl rfl).symm k) = ix2 j k :=
    funext fun a => Fin.ext (by
      match a with
      | ⟨0, _⟩ => exact rhsDc_0 _ _
      | ⟨1, _⟩ => exact (rhsDc_1 _ _).trans hk)
  rw [el, er]

/-- Entry `j` of the squared key norms is `Σ_k 1 · (y[j,k] · y[j,k])`. -/
theorem kNorm_apply (y : FVec Ideal S1024x128 .f32) (u : Fin 1) (j : Fin 1024) :
    kNorm y (ix2 u j) = ∑ k : Fin 128, Ideal.ofBits .f32 0x3F800000#32 * (y (ix2 j k) * y (ix2 j k)) := by
  unfold kNorm
  refine (Ideal.matmul_constant_zero_apply Dn none (k0_pay3 (F := Ideal)) (mulf y y) (ix2 u j)).trans ?_
  rw [← Equiv.sum_comp (contrEquiv1 Dn 128 rfl rfl).symm]
  refine Finset.sum_congr rfl fun k _ => ?_
  have hk : ((contrEquiv1 Dn 128 rfl rfl).symm k ⟨0, by decide⟩ : ℕ) = k.val := contrEquiv1_symm_val Dn 128 rfl rfl k
  have er : Dn.rhsIdx (ix2 u j) ((contrEquiv1 Dn 128 rfl rfl).symm k) = ix2 j k :=
    funext fun a => Fin.ext (by
      match a with
      | ⟨0, _⟩ => exact rhsDn_0 _ _
      | ⟨1, _⟩ => exact (rhsDn_1 _ _).trans hk)
  rw [er]
  rfl

/-! ## The row values -/

/-- The clamped expansion at `(p, j)`, as the body spells it. -/
theorem sqExp_apply (xb : FVec Ideal S256x128 .f32) (y : FVec Ideal S1024x128 .f32) (p : Fin 256) (j : Fin 1024) :
    sqExp xb y (ix2 p j)
      = max ((∑ k : Fin 128, xb (ix2 p k) * xb (ix2 p k))
            + (∑ k : Fin 128, Ideal.ofBits .f32 0x3F800000#32 * (y (ix2 j k) * y (ix2 j k)))
          - Ideal.ofBits .f32 0x40000000#32 * ∑ k : Fin 128, xb (ix2 p k) * y (ix2 j k)) (Ideal.ofBits .f32 0x00000000#32) := by
  have hq : broadcastTo S256x1024 (qNorm xb) Facts₀.broadcasts_S256x1_S256x1024 (ix2 p j) = ∑ k : Fin 128, xb (ix2 p k) * xb (ix2 p k) := by
    rw [bcol_apply]
    unfold qNorm
    rw [col_apply, lane128]
    rfl
  have hn : broadcastTo S256x1024 (kNorm y) Facts₀.broadcasts_S1x1024_S256x1024 (ix2 p j)
      = ∑ k : Fin 128, Ideal.ofBits .f32 0x3F800000#32 * (y (ix2 j k) * y (ix2 j k)) := by
    rw [broadcastTo_1b_ab_apply, kNorm_apply]
  unfold sqExp
  show max ((broadcastTo S256x1024 (qNorm xb) Facts₀.broadcasts_S256x1_S256x1024 (ix2 p j)
      + broadcastTo S256x1024 (kNorm y) Facts₀.broadcasts_S1x1024_S256x1024 (ix2 p j))
      - Ideal.ofBits .f32 0x40000000#32 * cross xb y (ix2 p j)) (Ideal.ofBits .f32 0x00000000#32) = _
  rw [hq, hn, cross_apply]

/-- At real queries and keys the clamped expansion is the squared distance. -/
theorem sqExp_real (xb : FVec Ideal S256x128 .f32) (y : FVec Ideal S1024x128 .f32)
    (hx : ∀ i, ∃ r : ℝ, xb i = (r : EReal)) (hy : ∀ i, ∃ r : ℝ, y i = (r : EReal)) (p : Fin 256) (j : Fin 1024) :
    sqExp xb y (ix2 p j) = PairLoss.sqDist (fun k => xb (ix2 p k)) (fun k => y (ix2 j k)) := by
  choose a ha using hx
  choose b hb using hy
  rw [sqExp_apply, Consts.ofBits_one, Consts.ofBits_two, Ideal.ofBits_zero_f32]
  unfold PairLoss.sqDist
  simp only [ha, hb]
  exact SqDist.expand_clamped (fun k => a (ix2 p k)) (fun k => b (ix2 j k))

/-- The scaled matched distance of row `p`. -/
theorem posD_apply (xb yb : FVec Ideal S256x128 .f32) (p : Fin 256) :
    posD xb yb (ix1 p) = Ideal.sqrt (PairLoss.sqDist (fun k => xb (ix2 p k)) (fun k => yb (ix2 p k))) * PairLoss.scale := by
  unfold posD
  refine (congrArg (fun z => Ideal.sqrt z * PairLoss.scale) (lane128 (mulf (subf xb yb) (subf xb yb)) p)).trans ?_
  rfl

/-- The summed exponentials of row `p`. -/
theorem denom_apply (xb : FVec Ideal S256x128 .f32) (y : FVec Ideal S1024x128 .f32) (p : Fin 256) :
    denom xb y (ix1 p) = ∑ j : Fin 1024, Ideal.exp (Ideal.sqrt (sqExp xb y (ix2 p j)) * PairLoss.scale) := by
  unfold denom
  refine (lane1024 _ p).trans ?_
  rfl

/-- ROW `p` OF A GRID POINT, at real queries and keys, is the row loss of query row `p`, its matched key row and
    all the key rows. -/
theorem rowK_apply (xb : FVec Ideal S256x128 .f32) (y : FVec Ideal S1024x128 .f32) (yb : FVec Ideal S256x128 .f32)
    (hx : ∀ i, ∃ r : ℝ, xb i = (r : EReal)) (hy : ∀ i, ∃ r : ℝ, y i = (r : EReal)) (p : Fin 256) :
    rowK xb y yb (ix1 p)
      = PairLoss.rowLoss (fun k => xb (ix2 p k)) (fun k => yb (ix2 p k)) (fun j k => y (ix2 j k)) := by
  unfold rowK
  show posD xb yb (ix1 p) - Ideal.log (denom xb y (ix1 p)) = _
  rw [posD_apply, denom_apply]
  unfold PairLoss.rowLoss
  refine congrArg (fun z => _ - Ideal.log z) (Finset.sum_congr rfl fun j _ => ?_)
  rw [sqExp_real xb y hx hy p j]

end Cert.KernelIdeal.RowValue

end
-- ==== Proof.Blocks.lean ====
/-
  From blocks to arrays. The grid has four points; point `t` holds query rows `256·t … 256·t + 255`, the whole of
  each key matrix, and reads its matched key rows out of the key matrix at the same row offset. Each of the two
  result arrays [1024, 1] is written back in four row blocks that tile it, and block `t` holds, at its row `p`, the
  loss of global row `256·t + p`. So at real inputs each result array is, row by row, `PairLoss.rowLoss` of that
  query row, its matched key row and all the key rows.
-/
import proofs.«174744_j34196529611087_1_alg».proof.Proof.Pieces
import proofs.«174744_j34196529611087_1_alg».proof.Proof.KernelRows
import proofs.«174744_j34196529611087_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- The row an index of a [1024, 1] array sits on. -/
abbrev rowOf (i : S1024x1.Idx) : Fin 1024 := ⟨(i 0).val, (i 0).isLt⟩

/-- The per-row losses of the queries `X` against the keys `Y`, as a [1024, 1] array. -/
def G (X Y : FVec Ideal S1024x128 .f32) : FVec Ideal S1024x1 .f32 :=
  fun i => PairLoss.rowLoss (fun k => X (ix2 (rowOf i) k)) (fun k => Y (ix2 (rowOf i) k)) (fun j k => Y (ix2 j k))

/-- One grid point, over plain vectors: if the point's query block and matched key block are rows `256·T + p` of
    `X` and `Y`, and its key matrix is `Y`, then its 256 row values, as a column, are the rows of `G X Y` it covers. -/
theorem point_rows (X Y : FVec Ideal S1024x128 .f32) (xb yb : FVec Ideal S256x128 .f32) (y : FVec Ideal S1024x128 .f32)
    (T : ℕ) (hT : T < 4)
    (hxb : ∀ (p : Fin 256) (k : Fin 128) (r : Fin 1024), r.val = 256 * T + p.val → xb (ix2 p k) = X (ix2 r k))
    (hyb : ∀ (p : Fin 256) (k : Fin 128) (r : Fin 1024), r.val = 256 * T + p.val → yb (ix2 p k) = Y (ix2 r k))
    (hy : y = Y) (hX : ∀ i, ∃ r : ℝ, X i = (r : EReal)) (hY : ∀ i, ∃ r : ℝ, Y i = (r : EReal))
    (q : S256x1.Idx) (i : S1024x1.Idx) (hi : (i 0).val = 256 * T + (q 0).val) :
    shapeCast S256x1 (RowValue.rowK xb y yb) Facts₀.shapeCasts_S256_S256x1 q = G X Y i := by
  subst hy
  obtain ⟨p, u, rfl⟩ : ∃ (p : Fin 256) (u : Fin 1), q = ix2 p u := ⟨q 0, q 1, eq_ix2 q⟩
  have hxr : ∀ j, ∃ r : ℝ, xb j = (r : EReal) := fun j => by
    obtain ⟨p', k', rfl⟩ : ∃ (p' : Fin 256) (k' : Fin 128), j = ix2 p' k' := ⟨j 0, j 1, eq_ix2 j⟩
    rw [hxb p' k' ⟨256 * T + p'.val, by have := p'.isLt; omega⟩ rfl]
    exact hX _
  rw [RowValue.col_apply, RowValue.rowK_apply xb y yb hxr hY p]
  unfold G
  have hr : (rowOf i).val = 256 * T + p.val := hi
  congr 1
  · funext k; exact hxb p k (rowOf i) hr
  · funext k; exact hyb p k (rowOf i) hr

variable (m : (ℓ : Loc nD τ sig) → Buf (Elt Ideal) ℓ)

/-- The printed index maps, decided once over the four grid points: the query window and the two result windows
    move one row block per point, the key windows stay at block zero, and a point's one coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ ((grid0.coords t) 0).val = t.val ∧ t.val < 4 :=
  (by decide +kernel : ∀ t : Fin grid0.N, _)

/-- The query block of point `t` is rows `256·t + p` of the query array. -/
theorem iblk0_apply (c : Dev nD) (t : Fin cfg0.N) (p : Fin 256) (k : Fin 128) (r : Fin 1024) (hr : r.val = 256 * t.val + p.val) :
    iblk m c 0 t (ix2 p k) = V m c main_arg0 (ix2 r k) := by
  obtain ⟨e00, e01, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; rw [e00]; omega
  | ⟨1, _⟩ => show win0_0.index t (1 : Fin 2) * 128 + 1 * k.val = k.val; rw [e01]; omega

/-- The first key window's block at every point is its whole array. -/
theorem iblk1_eq (c : Dev nD) (t : Fin cfg0.N) : (iblk m c 1 t : FVec Ideal S1024x128 .f32) = V m c main_arg2 := by
  obtain ⟨-, -, e10, e11, -⟩ := idx_facts t
  funext j
  show V m c main_arg2 (((cfg0.win 1).blk t).view.emb j) = V m c main_arg2 j
  refine congrArg (V m c main_arg2) (funext fun a => Fin.ext ?_)
  match a with
  | ⟨0, _⟩ => show win0_1.index t (0 : Fin 2) * 1024 + 1 * (j 0).val = (j 0).val; rw [e10]; omega
  | ⟨1, _⟩ => show win0_1.index t (1 : Fin 2) * 128 + 1 * (j 1).val = (j 1).val; rw [e11]; omega

/-- The second key window's block at every point is its whole array. -/
theorem iblk2_eq (c : Dev nD) (t : Fin cfg0.N) : (iblk m c 2 t : FVec Ideal S1024x128 .f32) = V m c main_arg1 := by
  obtain ⟨-, -, -, -, e20, e21, -⟩ := idx_facts t
  funext j
  show V m c main_arg1 (((cfg0.win 2).blk t).view.emb j) = V m c main_arg1 j
  refine congrArg (V m c main_arg1) (funext fun a => Fin.ext ?_)
  match a with
  | ⟨0, _⟩ => show win0_2.index t (0 : Fin 2) * 1024 + 1 * (j 0).val = (j 0).val; rw [e20]; omega
  | ⟨1, _⟩ => show win0_2.index t (1 : Fin 2) * 128 + 1 * (j 1).val = (j 1).val; rw [e21]; omega

/-- The rows a point reads out of a key matrix at its own row offset are rows `256·t + p` of that matrix. -/
theorem rowsAt_apply (t : Fin cfg0.N) (y : FVec Ideal S1024x128 .f32) (p : Fin 256) (k : Fin 128) (r : Fin 1024)
    (hr : r.val = 256 * t.val + p.val) : Rows.rowsAt (F := Ideal) (grid0.coords t) y (ix2 p k) = y (ix2 r k) := by
  obtain ⟨-, -, -, -, -, -, -, -, -, -, eg, -⟩ := idx_facts t
  show y ((Rect.unit (s := S1024x128) (k0_off1 (grid0.coords t)) S256x128.size (k0_off1_inb (grid0.coords t))).idx (ix2 p k)) = _
  refine congrArg y (funext fun a => Fin.ext ?_)
  match a with
  | ⟨0, _⟩ =>
    show k0_off1 (grid0.coords t) 0 + 1 * p.val = r.val
    rw [k0_off1_eq]
    show 256 * ((grid0.coords t) 0).val + 1 * p.val = r.val
    rw [eg]; omega
  | ⟨1, _⟩ =>
    show k0_off1 (grid0.coords t) 1 + 1 * k.val = k.val
    rw [k0_off1_eq]
    show 0 + 1 * k.val = k.val
    omega

/-! ## Output window 3: the queries against `main_arg2` -/

/-- WHAT POINT `t` WRITES BACK through window 3 is block `t` of the per-row losses. -/
theorem flushed3_eq (c : Dev nD) (hX : ∀ i, ∃ r : ℝ, V m c main_arg0 i = (r : EReal))
    (hY : ∀ i, ∃ r : ℝ, V m c main_arg2 i = (r : EReal)) (t : Fin cfg0.N) :
    (dats m 0 c).flushed 3 t
      = ((cfg0.win 3).blk t).view.read (Elt Ideal) (G (V m c main_arg0) (V m c main_arg2)) := by
  obtain ⟨-, -, -, -, -, -, e30, -, e40, -, -, hT⟩ := idx_facts t
  have hpay : (outsAt0 m c t).1
      = shapeCast S256x1 (RowValue.rowK (iblk m c 0 t) (iblk m c 1 t) (Rows.rowsAt (grid0.coords t) (iblk m c 1 t)))
          Facts₀.shapeCasts_S256_S256x1 :=
    (Rows.out3_eq (F := Ideal) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t)).trans
      (RowValue.pay14_eq (iblk m c 0 t) (iblk m c 1 t) (Rows.rowsAt (grid0.coords t) (iblk m c 1 t)))
  show (cfg0.win 3).cut (grid0.coords t) ((dats m 0 c).after 3 t) = _
  rw [after0_3, hpay]
  funext q
  show shapeCast S256x1 (RowValue.rowK (iblk m c 0 t) (iblk m c 1 t) (Rows.rowsAt (grid0.coords t) (iblk m c 1 t)))
      Facts₀.shapeCasts_S256_S256x1 q
    = G (V m c main_arg0) (V m c main_arg2) (((cfg0.win 3).blk t).view.emb q)
  refine point_rows (V m c main_arg0) (V m c main_arg2) (iblk m c 0 t) (Rows.rowsAt (grid0.coords t) (iblk m c 1 t))
    (iblk m c 1 t) t.val hT (fun p k r hr => iblk0_apply m c t p k r hr)
    (fun p k r hr => (rowsAt_apply t (iblk m c 1 t) p k r hr).trans (congrFun (iblk1_eq m c t) (ix2 r k)))
    (iblk1_eq m c t) hX hY q (((cfg0.win 3).blk t).view.emb q) ?_
  show win0_3.index t (0 : Fin 2) * 256 + 1 * (q 0).val = 256 * t.val + (q 0).val
  rw [e30]; omega

/-- An index of the result array is in point `t`'s block iff each coordinate is in the block's range. -/
theorem mem_blk3 (t : Fin cfg0.N) (i : S1024x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v0_0).slice (win0_3.rect t)).set ↔ _
  rw [View.set_slice_whole, Rect.mem_set_unit]
  exact Iff.rfl

/-- Every row of the result array is in the block of the point that holds it: row `r` in point `r / 256`. -/
theorem cover3 (i : S1024x1.Idx) :
    ∃ t : Fin cfg0.N, (cfg0.win 3).flush t = true ∧ i ∈ ((cfg0.win 3).blk t).view.set := by
  have h0 : (i 0).val < 1024 := (i 0).isLt
  have h1 : (i 1).val < 1 := (i 1).isLt
  have hN : cfg0.N = 4 := N_0
  obtain ⟨t, ht⟩ : ∃ t : Fin cfg0.N, t.val = (i 0).val / 256 := ⟨⟨(i 0).val / 256, by rw [hN]; omega⟩, rfl⟩
  obtain ⟨-, -, -, -, -, -, e30, e31, e40, e41, -, -⟩ := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e30]; omega
  | ⟨1, _⟩ =>
    show win0_3.index t (1 : Fin 2) * 1 ≤ (i 1).val ∧ (i 1).val < win0_3.index t (1 : Fin 2) * 1 + 1
    rw [e31]; omega

/-- THE ARRAY after the run: the per-row losses of the queries against `main_arg2`. -/
theorem final3 (c : Dev nD) (hX : ∀ i, ∃ r : ℝ, V m c main_arg0 i = (r : EReal))
    (hY : ∀ i, ∃ r : ℝ, V m c main_arg2 i = (r : EReal)) :
    (dats m 0 c).arrAt 3 cfg0.N = G (V m c main_arg0) (V m c main_arg2) :=
  (dats m 0 c).arrAt_eq_of_cover 3 (G (V m c main_arg0) (V m c main_arg2)) (fun t _ => flushed3_eq m c hX hY t) cover3

/-! ## Output window 4: the queries against `main_arg1` -/

/-- WHAT POINT `t` WRITES BACK through window 4 is block `t` of the per-row losses. -/
theorem flushed4_eq (c : Dev nD) (hX : ∀ i, ∃ r : ℝ, V m c main_arg0 i = (r : EReal))
    (hY : ∀ i, ∃ r : ℝ, V m c main_arg1 i = (r : EReal)) (t : Fin cfg0.N) :
    (dats m 0 c).flushed 4 t
      = ((cfg0.win 4).blk t).view.read (Elt Ideal) (G (V m c main_arg0) (V m c main_arg1)) := by
  obtain ⟨-, -, -, -, -, -, e30, -, e40, -, -, hT⟩ := idx_facts t
  have hpay : (outsAt0 m c t).2
      = shapeCast S256x1 (RowValue.rowK (iblk m c 0 t) (iblk m c 2 t) (Rows.rowsAt (grid0.coords t) (iblk m c 2 t)))
          Facts₀.shapeCasts_S256_S256x1 :=
    (Rows.out4_eq (F := Ideal) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t)).trans
      (RowValue.pay25_eq (iblk m c 0 t) (iblk m c 2 t) (Rows.rowsAt (grid0.coords t) (iblk m c 2 t)))
  show (cfg0.win 4).cut (grid0.coords t) ((dats m 0 c).after 4 t) = _
  rw [after0_4, hpay]
  funext q
  show shapeCast S256x1 (RowValue.rowK (iblk m c 0 t) (iblk m c 2 t) (Rows.rowsAt (grid0.coords t) (iblk m c 2 t)))
      Facts₀.shapeCasts_S256_S256x1 q
    = G (V m c main_arg0) (V m c main_arg1) (((cfg0.win 4).blk t).view.emb q)
  refine point_rows (V m c main_arg0) (V m c main_arg1) (iblk m c 0 t) (Rows.rowsAt (grid0.coords t) (iblk m c 2 t))
    (iblk m c 2 t) t.val hT (fun p k r hr => iblk0_apply m c t p k r hr)
    (fun p k r hr => (rowsAt_apply t (iblk m c 2 t) p k r hr).trans (congrFun (iblk2_eq m c t) (ix2 r k)))
    (iblk2_eq m c t) hX hY q (((cfg0.win 4).blk t).view.emb q) ?_
  show win0_4.index t (0 : Fin 2) * 256 + 1 * (q 0).val = 256 * t.val + (q 0).val
  rw [e40]; omega

/-- An index of the result array is in point `t`'s block iff each coordinate is in the block's range. -/
theorem mem_blk4 (t : Fin cfg0.N) (i : S1024x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v0_1).slice (win0_4.rect t)).set ↔ _
  rw [View.set_slice_whole, Rect.mem_set_unit]
  exact Iff.rfl

/-- Every row of the result array is in the block of the point that holds it: row `r` in point `r / 256`. -/
theorem cover4 (i : S1024x1.Idx) :
    ∃ t : Fin cfg0.N, (cfg0.win 4).flush t = true ∧ i ∈ ((cfg0.win 4).blk t).view.set := by
  have h0 : (i 0).val < 1024 := (i 0).isLt
  have h1 : (i 1).val < 1 := (i 1).isLt
  have hN : cfg0.N = 4 := N_0
  obtain ⟨t, ht⟩ : ∃ t : Fin cfg0.N, t.val = (i 0).val / 256 := ⟨⟨(i 0).val / 256, by rw [hN]; omega⟩, rfl⟩
  obtain ⟨-, -, -, -, -, -, e30, e31, e40, e41, -, -⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e40]; omega
  | ⟨1, _⟩ =>
    show win0_4.index t (1 : Fin 2) * 1 ≤ (i 1).val ∧ (i 1).val < win0_4.index t (1 : Fin 2) * 1 + 1
    rw [e41]; omega

/-- THE ARRAY after the run: the per-row losses of the queries against `main_arg1`. -/
theorem final4 (c : Dev nD) (hX : ∀ i, ∃ r : ℝ, V m c main_arg0 i = (r : EReal))
    (hY : ∀ i, ∃ r : ℝ, V m c main_arg1 i = (r : EReal)) :
    (dats m 0 c).arrAt 4 cfg0.N = G (V m c main_arg0) (V m c main_arg1) :=
  (dats m 0 c).arrAt_eq_of_cover 4 (G (V m c main_arg0) (V m c main_arg1)) (fun t _ => flushed4_eq m c hX hY t) cover4

end Cert.KernelIdeal.Blocks

end
-- ==== Proof.KernelRun.lean ====
/-
  The idealized kernel's whole run, read. After the four grid points the two result arrays hold the per-row
  losses (Proof/Blocks.lean); the lines of @main after the region reshape each to 1024 values, sum them, divide by
  1024, and add the first mean to one times the second. So under real inputs the three results are those means
  and their sum, and the three argument arrays end as they began.
-/
import proofs.«174744_j34196529611087_1_alg».proof.Proof.Blocks
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Blocks

/-- The mean of the 1024 rows of a [1024, 1] array, as the lines after the region compute it. -/
def meanRows (A : FVec Ideal S1024x1 .f32) : FVec Ideal S_ .f32 :=
  Host.divf (F := Ideal)
    (Host.reduceAdd (F := Ideal) (shapeCast S1024 A Facts₀.shapeCasts_S1024x1_S1024) (constant (F := Ideal) S_ .f32 0x00000000#32)
      Facts₀.reducesTo_S1024_S_d0 Facts₀.h_S_)
    (constant (F := Ideal) S_ .f32 0x44800000#32)

/-- The first mean plus one times the second. -/
def total (a b : FVec Ideal S_ .f32) : FVec Ideal S_ .f32 :=
  addf a (mulf (constant (F := Ideal) S_ .f32 0x3F800000#32) b)

variable (m : (ℓ : Loc nD τ sig) → Buf (Elt Ideal) ℓ) (ρ : Dev nD → PrngReg)

/-- The first result array as the lines after the region find it. -/
theorem arr3 (c : Dev nD) (hX : ∀ i, ∃ r : ℝ, m ((c.tc : Thread nD τ).loc main_arg0) i = (r : EReal))
    (hY : ∀ i, ∃ r : ℝ, m ((c.tc : Thread nD τ).loc main_arg2) i = (r : EReal)) :
    Pipeline.withArrays (cfgs 0).spec c (V0 m c) (fun w => (dats m 0 c).arrAt w (cfgs 0).N) (Proc.devRef .tc main_v0_0)
      = G (m ((c.tc : Thread nD τ).loc main_arg0)) (m ((c.tc : Thread nD τ).loc main_arg2)) :=
  (Pipeline.withArrays_arr (cfgs 0).spec launch0.win.arr_inj c _ _ 3).trans (final3 m c hX hY)

/-- The second result array as the lines after the region find it. -/
theorem arr4 (c : Dev nD) (hX : ∀ i, ∃ r : ℝ, m ((c.tc : Thread nD τ).loc main_arg0) i = (r : EReal))
    (hY : ∀ i, ∃ r : ℝ, m ((c.tc : Thread nD τ).loc main_arg1) i = (r : EReal)) :
    Pipeline.withArrays (cfgs 0).spec c (V0 m c) (fun w => (dats m 0 c).arrAt w (cfgs 0).N) (Proc.devRef .tc main_v0_1)
      = G (m ((c.tc : Thread nD τ).loc main_arg0)) (m ((c.tc : Thread nD τ).loc main_arg1)) :=
  (Pipeline.withArrays_arr (cfgs 0).spec launch0.win.arr_inj c _ _ 4).trans (final4 m c hX hY)

/-- The second result of @main: the mean of the first result array's rows. -/
theorem tail_v4 (c : Dev nD) (hX : ∀ i, ∃ r : ℝ, m ((c.tc : Thread nD τ).loc main_arg0) i = (r : EReal))
    (hY : ∀ i, ∃ r : ℝ, m ((c.tc : Thread nD τ).loc main_arg2) i = (r : EReal)) :
    Pipeline.afterTail₀ cfgs (dats m) 0 (V0 m) [hostOps1] c main_v4
      = meanRows (G (m ((c.tc : Thread nD τ).loc main_arg0)) (m ((c.tc : Thread nD τ).loc main_arg2))) := by
  unfold Pipeline.afterTail₀
  show StableHlo.after hostOps1 _ (Proc.devRef .tc main_v4) = _
  after_results
  exact congrArg meanRows (arr3 m c hX hY)

/-- The third result of @main: the mean of the second result array's rows. -/
theorem tail_v6 (c : Dev nD) (hX : ∀ i, ∃ r : ℝ, m ((c.tc : Thread nD τ).loc main_arg0) i = (r : EReal))
    (hY : ∀ i, ∃ r : ℝ, m ((c.tc : Thread nD τ).loc main_arg1) i = (r : EReal)) :
    Pipeline.afterTail₀ cfgs (dats m) 0 (V0 m) [hostOps1] c main_v6
      = meanRows (G (m ((c.tc : Thread nD τ).loc main_arg0)) (m ((c.tc : Thread nD τ).loc main_arg1))) := by
  unfold Pipeline.afterTail₀
  show StableHlo.after hostOps1 _ (Proc.devRef .tc main_v6) = _
  after_results
  exact congrArg meanRows (arr4 m c hX hY)

/-- The first result of @main: the two means added. -/
theorem tail_v8 (c : Dev nD) (hX : ∀ i, ∃ r : ℝ, m ((c.tc : Thread nD τ).loc main_arg0) i = (r : EReal))
    (hY2 : ∀ i, ∃ r : ℝ, m ((c.tc : Thread nD τ).loc main_arg2) i = (r : EReal))
    (hY1 : ∀ i, ∃ r : ℝ, m ((c.tc : Thread nD τ).loc main_arg1) i = (r : EReal)) :
    Pipeline.afterTail₀ cfgs (dats m) 0 (V0 m) [hostOps1] c main_v8
      = total (meanRows (G (m ((c.tc : Thread nD τ).loc main_arg0)) (m ((c.tc : Thread nD τ).loc main_arg2))))
          (meanRows (G (m ((c.tc : Thread nD τ).loc main_arg0)) (m ((c.tc : Thread nD τ).loc main_arg1)))) := by
  unfold Pipeline.afterTail₀
  show StableHlo.after hostOps1 _ (Proc.devRef .tc main_v8) = _
  after_results
  exact congrArg₂ total (congrArg meanRows (arr3 m c hX hY2)) (congrArg meanRows (arr4 m c hX hY1))

/-- THE RUN at real inputs: every weakly fair execution terminates with the three results at the means of the
    per-row losses and their sum, and the three argument arrays unchanged. -/
theorem run (hfin : ∀ c : Dev nD, (∀ i, ∃ r : ℝ, m ((c.tc : Thread nD τ).loc main_arg0) i = (r : EReal))
      ∧ (∀ i, ∃ r : ℝ, m ((c.tc : Thread nD τ).loc main_arg1) i = (r : EReal)) ∧ (∀ i, ∃ r : ℝ, m ((c.tc : Thread nD τ).loc main_arg2) i = (r : EReal))) :
    θ_run defs (onTc (τ := τ) (main (F := Ideal))) ⟨m, fun _ => 0, ρ⟩ (fun r => ∀ c : Dev nD,
      r.2.mem ((c.tc : Thread nD τ).loc main_v8)
          = total (meanRows (G (m ((c.tc : Thread nD τ).loc main_arg0)) (m ((c.tc : Thread nD τ).loc main_arg2))))
              (meanRows (G (m ((c.tc : Thread nD τ).loc main_arg0)) (m ((c.tc : Thread nD τ).loc main_arg1))))
      ∧ r.2.mem ((c.tc : Thread nD τ).loc main_v4) = meanRows (G (m ((c.tc : Thread nD τ).loc main_arg0)) (m ((c.tc : Thread nD τ).loc main_arg2)))
      ∧ r.2.mem ((c.tc : Thread nD τ).loc main_v6) = meanRows (G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 rfl (by decide))).trans
        (tail_v8 m c (hfin c).1 (hfin c).2.2 (hfin c).2.1),
      ((h c).2 main_v4 (Pipeline.mem_restRefs_of main_v4 rfl (by decide))).trans (tail_v4 m c (hfin c).1 (hfin c).2.2),
      ((h c).2 main_v6 (Pipeline.mem_restRefs_of main_v6 rfl (by decide))).trans (tail_v6 m c (hfin c).1 (hfin c).2.1),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.RunValue

end
-- ==== Proof.RefRows.lean ====
/-
  The reference, one query row at a time. For each of its two pairs — the queries against the label prompts, and
  the queries against the augmented queries — the reference's per-row value (matched distance times the scale,
  minus the log of the summed exponentials of the scaled pairwise distances) is `PairLoss.rowLoss` of that row.
  The pairwise distances are read through the two broadcasts to [1024, 1024, 128]: entry `(r, j, k)` of the
  difference is `x[r,k] - y[j,k]`.
-/
import proofs.«174744_j34196529611087_1_alg».proof.Proof.Gen.ReferenceIdeal.Read
import proofs.«174744_j34196529611087_1_alg».proof.Proof.Spec
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx

/-! ## The pair (x, x2) -/

/-- The broadcast difference at `(r, j, k)` is `x[r,k] - y[j,k]`. -/
theorem diff3_c (x0 x2 : (⟨S1024x128, .f32⟩ : BufTy).Contents (Elt Ideal)) (r j : Fin 1024) (k : Fin 128) :
    val_main_v8 (F := Ideal) x0 x2 (ix3 r j k) = x0 (ix2 r k) - x2 (ix2 j k) := by
  rw [val_main_v8_apply, val_main_v6_apply, val_main_v4_apply, val_main_v7_apply, val_main_v5_apply]
  have e0 : idx_main_v4 (idx_main_v6 (ix3 r j k)) = ix2 r k :=
    funext fun a => Fin.ext (by match a with | ⟨0, _⟩ => rfl | ⟨1, _⟩ => rfl)
  have e2 : idx_main_v5 (idx_main_v7 (ix3 r j k)) = ix2 j k :=
    funext fun a => Fin.ext (by match a with | ⟨0, _⟩ => rfl | ⟨1, _⟩ => rfl)
  rw [e0, e2]; rfl

/-- The pairwise squared distance at `(r, j)`. -/
theorem sq_c (x0 x2 : (⟨S1024x128, .f32⟩ : BufTy).Contents (Elt Ideal)) (r j : Fin 1024) :
    val_main_call1_v1 (F := Ideal) x0 x2 (ix2 r j)
      = PairLoss.sqDist (fun k => x0 (ix2 r k)) (fun k => x2 (ix2 j k)) := by
  rw [val_main_call1_v1_apply, val_main_call1_cst_apply, Ideal.ofBits_def, Ideal.ofBits_zero_f32, zero_add]
  unfold PairLoss.sqDist
  refine Finset.sum_congr rfl fun k _ => ?_
  have e : idx_main_call1_v1 (ix2 r j) k = ix3 r j k :=
    funext fun a => Fin.ext (by match a with | ⟨0, _⟩ => rfl | ⟨1, _⟩ => rfl | ⟨2, _⟩ => rfl)
  rw [e, val_main_call1_v0_apply, diff3_c]; rfl

/-- The matched-row squared distance at `r`. -/
theorem pos_c (x0 x2 : (⟨S1024x128, .f32⟩ : BufTy).Contents (Elt Ideal)) (r : Fin 1024) :
    val_main_call0_v1 (F := Ideal) x0 x2 (ix1 r)
      = PairLoss.sqDist (fun k => x0 (ix2 r k)) (fun k => x2 (ix2 r k)) := by
  rw [val_main_call0_v1_apply, val_main_call0_cst_apply, Ideal.ofBits_def, Ideal.ofBits_zero_f32, zero_add]
  unfold PairLoss.sqDist
  refine Finset.sum_congr rfl fun k _ => ?_
  have e : idx_main_call0_v1 (ix1 r) k = ix2 r k :=
    funext fun a => Fin.ext (by match a with | ⟨0, _⟩ => rfl | ⟨1, _⟩ => rfl)
  rw [e, val_main_call0_v0_apply, val_main_v0_apply]; rfl

/-- The reference's per-row value for this pair is the row loss. -/
theorem row_c (x0 x2 : (⟨S1024x128, .f32⟩ : BufTy).Contents (Elt Ideal)) (r : Fin 1024) :
    val_main_v15 (F := Ideal) x0 x2 (ix1 r)
      = PairLoss.rowLoss (fun k => x0 (ix2 r k)) (fun k => x2 (ix2 r k)) (fun j k => x2 (ix2 j k)) := by
  rw [val_main_v15_apply, val_main_v3_apply, val_main_v1_apply, pos_c, val_main_v2_apply, val_main_cst_apply,
    val_main_v14_apply, val_main_v13_apply, val_main_cst_1_apply]
  show Ideal.sqrt _ * Ideal.ofBits .f32 0x3DB504F3#32 - Ideal.log (Ideal.ofBits .f32 0x00000000#32 + _) = _
  rw [Ideal.ofBits_zero_f32, zero_add]
  unfold PairLoss.rowLoss
  refine congrArg (fun z => _ - Ideal.log z) (Finset.sum_congr rfl fun j _ => ?_)
  have e : idx_main_v13 (ix1 r) j = ix2 r j :=
    funext fun a => Fin.ext (by match a with | ⟨0, _⟩ => rfl | ⟨1, _⟩ => rfl)
  rw [e, val_main_v12_apply, val_main_v11_apply, val_main_v9_apply, sq_c, val_main_v10_apply, val_main_cst_0_apply]
  rfl

/-! ## The pair (x, x1) -/

/-- The broadcast difference at `(r, j, k)` is `x[r,k] - y[j,k]`. -/
theorem diff3_a (x0 x1 : (⟨S1024x128, .f32⟩ : BufTy).Contents (Elt Ideal)) (r j : Fin 1024) (k : Fin 128) :
    val_main_v26 (F := Ideal) x0 x1 (ix3 r j k) = x0 (ix2 r k) - x1 (ix2 j k) := by
  rw [val_main_v26_apply, val_main_v24_apply, val_main_v22_apply, val_main_v25_apply, val_main_v23_apply]
  have e0 : idx_main_v22 (idx_main_v24 (ix3 r j k)) = ix2 r k :=
    funext fun a => Fin.ext (by match a with | ⟨0, _⟩ => rfl | ⟨1, _⟩ => rfl)
  have e2 : idx_main_v23 (idx_main_v25 (ix3 r j k)) = ix2 j k :=
    funext fun a => Fin.ext (by match a with | ⟨0, _⟩ => rfl | ⟨1, _⟩ => rfl)
  rw [e0, e2]; rfl

/-- The pairwise squared distance at `(r, j)`. -/
theorem sq_a (x0 x1 : (⟨S1024x128, .f32⟩ : BufTy).Contents (Elt Ideal)) (r j : Fin 1024) :
    val_main_call3_v1 (F := Ideal) x0 x1 (ix2 r j)
      = PairLoss.sqDist (fun k => x0 (ix2 r k)) (fun k => x1 (ix2 j k)) := by
  rw [val_main_call3_v1_apply, val_main_call3_cst_apply, Ideal.ofBits_def, Ideal.ofBits_zero_f32, zero_add]
  unfold PairLoss.sqDist
  refine Finset.sum_congr rfl fun k _ => ?_
  have e : idx_main_call3_v1 (ix2 r j) k = ix3 r j k :=
    funext fun a => Fin.ext (by match a with | ⟨0, _⟩ => rfl | ⟨1, _⟩ => rfl | ⟨2, _⟩ => rfl)
  rw [e, val_main_call3_v0_apply, diff3_a]; rfl

/-- The matched-row squared distance at `r`. -/
theorem pos_a (x0 x1 : (⟨S1024x128, .f32⟩ : BufTy).Contents (Elt Ideal)) (r : Fin 1024) :
    val_main_call2_v1 (F := Ideal) x0 x1 (ix1 r)
      = PairLoss.sqDist (fun k => x0 (ix2 r k)) (fun k => x1 (ix2 r k)) := by
  rw [val_main_call2_v1_apply, val_main_call2_cst_apply, Ideal.ofBits_def, Ideal.ofBits_zero_f32, zero_add]
  unfold PairLoss.sqDist
  refine Finset.sum_congr rfl fun k _ => ?_
  have e : idx_main_call2_v1 (ix1 r) k = ix2 r k :=
    funext fun a => Fin.ext (by match a with | ⟨0, _⟩ => rfl | ⟨1, _⟩ => rfl)
  rw [e, val_main_call2_v0_apply, val_main_v18_apply]; rfl

/-- The reference's per-row value for this pair is the row loss. -/
theorem row_a (x0 x1 : (⟨S1024x128, .f32⟩ : BufTy).Contents (Elt Ideal)) (r : Fin 1024) :
    val_main_v33 (F := Ideal) x0 x1 (ix1 r)
      = PairLoss.rowLoss (fun k => x0 (ix2 r k)) (fun k => x1 (ix2 r k)) (fun j k => x1 (ix2 j k)) := by
  rw [val_main_v33_apply, val_main_v21_apply, val_main_v19_apply, pos_a, val_main_v20_apply, val_main_cst_4_apply,
    val_main_v32_apply, val_main_v31_apply, val_main_cst_6_apply]
  show Ideal.sqrt _ * Ideal.ofBits .f32 0x3DB504F3#32 - Ideal.log (Ideal.ofBits .f32 0x00000000#32 + _) = _
  rw [Ideal.ofBits_zero_f32, zero_add]
  unfold PairLoss.rowLoss
  refine congrArg (fun z => _ - Ideal.log z) (Finset.sum_congr rfl fun j _ => ?_)
  have e : idx_main_v31 (ix1 r) j = ix2 r j :=
    funext fun a => Fin.ext (by match a with | ⟨0, _⟩ => rfl | ⟨1, _⟩ => rfl)
  rw [e, val_main_v30_apply, val_main_v29_apply, val_main_v27_apply, sq_a, val_main_v28_apply, val_main_cst_5_apply]
  rfl

end Cert.ReferenceIdeal.Rows

end
-- ==== Proof.Bridge.lean ====
/-
  The two programs meet. The kernel's result arrays, reshaped to 1024 values, are the reference's per-row values:
  both are `PairLoss.rowLoss` of the same rows (Proof/Blocks.lean for the kernel, Proof/RefRows.lean for the
  reference). The lines that follow — sum, divide by 1024, add — are the same operations in both programs, so the
  means and their sum agree.
-/
import proofs.«174744_j34196529611087_1_alg».proof.Proof.KernelRun
import proofs.«174744_j34196529611087_1_alg».proof.Proof.RefRows

noncomputable section

namespace Cert.Bridge

open Idealize.ShloMosaic Idealize.ShloMosaic.ValueIdx
open Cert.KernelIdeal.RunValue (meanRows total)
open Cert.KernelIdeal.Blocks (G)

/-- The first result array's rows are the reference's per-row values of the pair (queries, label prompts). -/
theorem rows_c (x0 x2 : FVec Ideal ⟨2, ![1024, 128]⟩ .f32) :
    shapeCast Cert.KernelIdeal.S1024 (G x0 x2) Cert.KernelIdeal.Facts₀.shapeCasts_S1024x1_S1024
      = Cert.ReferenceIdeal.Read.val_main_v15 (F := Ideal) x0 x2 := by
  funext i
  obtain ⟨r, rfl⟩ : ∃ r : Fin 1024, i = ix1 r := ⟨i 0, eq_ix1 i⟩
  refine (shapeCast_apply (G x0 x2) Cert.KernelIdeal.Facts₀.shapeCasts_S1024x1_S1024 (ix1 r) (ix2 r (0 : Fin 1)) ?_).trans
    (Cert.ReferenceIdeal.Rows.row_c x0 x2 r).symm
  rw [Shape.rowMajor_val_one, Shape.rowMajor_val_two]
  show r.val * 1 + 0 = r.val
  omega

/-- The second result array's rows are the reference's per-row values of the pair (queries, augmented queries). -/
theorem rows_a (x0 x1 : FVec Ideal ⟨2, ![1024, 128]⟩ .f32) :
    shapeCast Cert.KernelIdeal.S1024 (G x0 x1) Cert.KernelIdeal.Facts₀.shapeCasts_S1024x1_S1024
      = Cert.ReferenceIdeal.Read.val_main_v33 (F := Ideal) x0 x1 := by
  funext i
  obtain ⟨r, rfl⟩ : ∃ r : Fin 1024, i = ix1 r := ⟨i 0, eq_ix1 i⟩
  refine (shapeCast_apply (G x0 x1) Cert.KernelIdeal.Facts₀.shapeCasts_S1024x1_S1024 (ix1 r) (ix2 r (0 : Fin 1)) ?_).trans
    (Cert.ReferenceIdeal.Rows.row_a x0 x1 r).symm
  rw [Shape.rowMajor_val_one, Shape.rowMajor_val_two]
  show r.val * 1 + 0 = r.val
  omega

/-- The kernel's first mean is the reference's. -/
theorem mean_c (x0 x2 : FVec Ideal ⟨2, ![1024, 128]⟩ .f32) :
    meanRows (G x0 x2) = Cert.ReferenceIdeal.Read.val_main_v17 (F := Ideal) x0 x2 := by
  unfold meanRows
  rw [rows_c]
  rfl

/-- The kernel's second mean is the reference's. -/
theorem mean_a (x0 x1 : FVec Ideal ⟨2, ![1024, 128]⟩ .f32) :
    meanRows (G x0 x1) = Cert.ReferenceIdeal.Read.val_main_v35 (F := Ideal) x0 x1 := by
  unfold meanRows
  rw [rows_a]
  rfl

/-- The kernel's sum of the two means is the reference's. -/
theorem total_eq (x0 x1 x2 : FVec Ideal ⟨2, ![1024, 128]⟩ .f32) :
    total (meanRows (G x0 x2)) (meanRows (G x0 x1)) = Cert.ReferenceIdeal.Read.val_main_v37 (F := Ideal) x0 x1 x2 := by
  rw [mean_c, mean_a]
  rfl

end Cert.Bridge

end
-- ==== Proof.lean ====
/-
  A pair loss computed by one tiled kernel, against its plain array reference, over the extended reals.

  For queries `x` and keys `y` (1024 rows of 128 each) the per-row loss is
      √(Σ_k (x[r,k] - y[r,k])²) · s  -  log Σ_j exp(√(Σ_k (x[r,k] - y[j,k])²) · s),
  and each program returns the mean of it over the rows for two key matrices (the label prompts, the augmented
  queries), and the sum of the two means.

  The reference forms every difference `x[r,k] - y[j,k]` and sums its squares. The kernel, four row blocks of 256
  queries at a time, gets the same squared distance as `‖x[r]‖² + ‖y[j]‖² - 2⟨x[r], y[j]⟩` clamped at zero, the
  squared key norms and the inner products by matrix products. Over the reals the two agree, and the clamp does
  nothing because a sum of squares is not negative (Proof/SqDist.lean); the precondition makes every input real
  (Proof/Finite.lean). Everything after the squared distance — root, scale, exponential, row sum, logarithm, mean —
  is the same function on both sides, so nothing else is evaluated.

  Proof/Spec.lean states the per-row loss; Proof/RefRows.lean and Proof/KernelRows.lean show each program's row is
  it; Proof/Pieces.lean and Proof/Blocks.lean take the kernel's four write-backs per result to whole arrays;
  Proof/KernelRun.lean reads the kernel's run with the lines after the region; Proof/Bridge.lean joins the two.
  The idealization rewrote nothing, so `preserves` is trivial.
-/
import proofs.«174744_j34196529611087_1_alg».proof.Defs
import proofs.«174744_j34196529611087_1_alg».proof.Proof.Gen.Kernel
import proofs.«174744_j34196529611087_1_alg».proof.Proof.Gen.Kernel.Skeleton
import proofs.«174744_j34196529611087_1_alg».proof.Proof.Gen.Kernel.Launch
import proofs.«174744_j34196529611087_1_alg».proof.Proof.Gen.Kernel.Points
import proofs.«174744_j34196529611087_1_alg».proof.Proof.Gen.Kernel.Frame
import proofs.«174744_j34196529611087_1_alg».proof.Proof.Gen.KernelIdeal
import proofs.«174744_j34196529611087_1_alg».proof.Proof.Gen.KernelIdeal.Skeleton
import proofs.«174744_j34196529611087_1_alg».proof.Proof.Gen.KernelIdeal.Launch
import proofs.«174744_j34196529611087_1_alg».proof.Proof.Gen.KernelIdeal.Points
import proofs.«174744_j34196529611087_1_alg».proof.Proof.Gen.KernelIdeal.Frame
import proofs.«174744_j34196529611087_1_alg».proof.Proof.Gen.ReferenceIdeal
import proofs.«174744_j34196529611087_1_alg».proof.Proof.Gen.Pre_finite_inputs
import proofs.«174744_j34196529611087_1_alg».proof.Proof.Gen.ReferenceIdeal.Run
import proofs.«174744_j34196529611087_1_alg».proof.Proof.Gen.ReferenceIdeal.Read
import proofs.«174744_j34196529611087_1_alg».proof.Proof.Finite
import proofs.«174744_j34196529611087_1_alg».proof.Proof.KernelRun
import proofs.«174744_j34196529611087_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the three real-valued inputs, both programs end with the same three results:
    the means of the per-row losses for the two key matrices, and their sum. -/
theorem algebraic : Cert.algebraic_KernelIdeal_ReferenceIdeal := by
  intro m ρ m' ρ' hpre hagree
  have hfin := fun c => Cert.Finite.reals_of_pre _ _ _ (hpre c)
  refine ⟨_, _, _, Cert.KernelIdeal.RunValue.run m ρ hfin, ?_⟩
  refine (θ_run Cert.ReferenceIdeal.defs _ _).mono (fun _ h c => ?_) (Cert.ReferenceIdeal.Value.run (F := Ideal) m' ρ')
  obtain ⟨h37, h17, h35, hargs⟩ := h c
  obtain ⟨a0, a1, a2⟩ := hagree c
  refine ⟨h37.trans ?_, h17.trans ?_, h35.trans ?_, hargs⟩
  · rw [a0, a1, a2, Cert.Bridge.total_eq]; rfl
  · rw [a0, a2, Cert.Bridge.mean_c]; rfl
  · rw [a0, a1, Cert.Bridge.mean_a]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
